-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S256x16 : Shape := ⟨2, ![256, 16]⟩
abbrev S16 : Shape := ⟨1, ![16]⟩
abbrev S16x256 : Shape := ⟨2, ![16, 256]⟩
abbrev S256 : Shape := ⟨1, ![256]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x32x32 .f32) (main_arg1 : FVec F S256x16 .f32) (main_arg2 : FVec F S16 .f32) (main_arg3 : FVec F S16x256 .f32) (main_arg4 : FVec F S256 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x256 .f32 := Host.absf main_arg3
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_arg4 main_v13 main_v16
-- ==== Kernel.lean ====
abbrev S64x256x32x32 : Shape := ⟨4, ![64, 256, 32, 32]⟩
abbrev S256x16 : Shape := ⟨2, ![256, 16]⟩
abbrev S16 : Shape := ⟨1, ![16]⟩
abbrev S16x256 : Shape := ⟨2, ![16, 256]⟩
abbrev S256 : Shape := ⟨1, ![256]⟩
abbrev S1x16 : Shape := ⟨2, ![1, 16]⟩
abbrev S_ : Shape := ⟨0, ![]⟩
abbrev S1x256 : Shape := ⟨2, ![1, 256]⟩
abbrev S64x256x1024 : Shape := ⟨3, ![64, 256, 1024]⟩
abbrev S64x256 : Shape := ⟨2, ![64, 256]⟩
abbrev S16x256x1024 : Shape := ⟨3, ![16, 256, 1024]⟩
abbrev S32x256 : Shape := ⟨2, ![32, 256]⟩
abbrev S32x16 : Shape := ⟨2, ![32, 16]⟩
abbrev S16x16 : Shape := ⟨2, ![16, 16]⟩
abbrev S64x256x1x1 : Shape := ⟨4, ![64, 256, 1, 1]⟩

abbrev nBuf : Space → Nat
  | .hbm => 15
  | .vmem => 8
  | .smem => 0
  | _ => 0

abbrev bufTy : (tb : Table) → Fin (tcTables nBuf tb) → BufTy
  | .hbm, ⟨0, _⟩ => ⟨S64x256x32x32, .f32⟩
  | .hbm, ⟨1, _⟩ => ⟨S256x16, .f32⟩
  | .hbm, ⟨2, _⟩ => ⟨S16, .f32⟩
  | .hbm, ⟨3, _⟩ => ⟨S16x256, .f32⟩
  | .hbm, ⟨4, _⟩ => ⟨S256, .f32⟩
  | .hbm, ⟨5, _⟩ => ⟨S1x16, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S1x256, .f32⟩
  | .hbm, ⟨10, _⟩ => ⟨S64x256x1024, .f32⟩
  | .hbm, ⟨11, _⟩ => ⟨S64x256, .f32⟩
  | .hbm, ⟨12, _⟩ => ⟨S64x256x1x1, .f32⟩
  | .hbm, ⟨13, _⟩ => ⟨S64x256x32x32, .f32⟩
  | .hbm, ⟨14, _⟩ => ⟨S64x256x32x32, .f32⟩
  | .local _ .vmem, ⟨0, _⟩ => ⟨S16x256x1024, .f32⟩
  | .local _ .vmem, ⟨1, _⟩ => ⟨S16x256x1024, .f32⟩
  | .local _ .vmem, ⟨2, _⟩ => ⟨S256x16, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S16x256, .f32⟩
  | .local _ .vmem, ⟨7, _⟩ => ⟨S16x256, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  bcast_S_S256 : S_.BroadcastsInDim S256 (![] : Fin 0 → Fin S256.rank)
  shapeCasts_S256_S1x256 : S256.ShapeCasts S1x256
  shapeCasts_S64x256x32x32_S64x256x1024 : S64x256x32x32.ShapeCasts S64x256x1024
  inb_S16x256x1024_S16x256x1024_0_0_0 : ∀ a, (![0, 0, 0] : Fin 3 → Nat) a + S16x256x1024.size a ≤ S16x256x1024.size a
  h_S16x256x1024 : 0 < S16x256x1024.numel
  shapeCasts_S16x256x1024_S16x256x1024 : S16x256x1024.ShapeCasts S16x256x1024
  reduces_S16x256x1024_S16x256 : S16x256x1024.Reduces [2] S16x256
  concatenates_S16x256_S16x256_S32x256_d0 : Shape.Concatenates [S16x256, S16x256] S32x256 0
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S32x16 : S1x16.Broadcasts S32x16
  slices_S32x16_o0_0_S16x16 : S32x16.Slices ![0, 0] S16x16
  slices_S32x16_o16_0_S16x16 : S32x16.Slices ![16, 0] S16x16
  inb_S16x256_S16x256_0_0 : ∀ a, (![0, 0] : Fin 2 → Nat) a + S16x256.size a ≤ S16x256.size a
  h_S16x256 : 0 < S16x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  bcast_S64x256_S64x256x1x1_0_1 : S64x256.BroadcastsInDim S64x256x1x1 (![0, 1] : Fin 2 → Fin S64x256x1x1.rank)
  bcast_S64x256x1x1_S64x256x32x32_0_1_2_3 : S64x256x1x1.BroadcastsInDim S64x256x32x32 (![0, 1, 2, 3] : Fin 4 → Fin S64x256x32x32.rank)
  dot_S32x256_S256x16_S32x16_1_0_0_1_n_n_wf : DotDims.WF S32x256 S256x16 S32x16 [1] [0] [0] [1] [] []
  dot_S16x16_S16x256_S16x256_1_0_0_1_n_n_wf : DotDims.WF S16x16 S16x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S64x256x1024.size a
  hwx0_0 : ∀ i : grid0.Coords, EltTy.bits .f32 = 32 ∨ (Rect.block (s := S64x256x1024) S16x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S64x256.size a
  hwx0_5 : ∀ i : grid0.Coords, EltTy.bits .f32 = 32 ∨ (Rect.block (s := S64x256) S16x256.size (cc0_transform_5 i) (hinb0_5 i)).WholeWords (EltTy.packing .f32)

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S16x16_S16x256_S16x256_1_0_0_1_n_n : DotDims S16x16 S16x256 S16x256 where
  lhsContracting := [1]
  rhsContracting := [0]
  lhsNonContracting := [0]
  rhsNonContracting := [1]
  lhsBatch := []
  rhsBatch := []
  wf := dot_S16x16_S16x256_S16x256_1_0_0_1_n_n_wf

abbrev win0_0 : Pipeline.Window sig grid0 :=
  Pipeline.Window.ofSpec (Memref.whole main_v4) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S256x16 : Shape := ⟨2, ![256, 16]⟩
abbrev S16 : Shape := ⟨1, ![16]⟩
abbrev S16x256 : Shape := ⟨2, ![16, 256]⟩
abbrev S256 : Shape := ⟨1, ![256]⟩
abbrev S1x16 : Shape := ⟨2, ![1, 16]⟩
abbrev S1x256 : Shape := ⟨2, ![1, 256]⟩
abbrev S64x256x1024 : Shape := ⟨3, ![64, 256, 1024]⟩
abbrev S2x256x1024 : Shape := ⟨3, ![2, 256, 1024]⟩
abbrev S2x256 : Shape := ⟨2, ![2, 256]⟩
abbrev S4x256 : Shape := ⟨2, ![4, 256]⟩
abbrev S4x16 : Shape := ⟨2, ![4, 16]⟩
abbrev S2x256x1 : Shape := ⟨3, ![2, 256, 1]⟩

abbrev nBuf : Space → Nat
  | .hbm => 10
  | .vmem => 8
  | .smem => 0
  | _ => 0

abbrev bufTy : (tb : Table) → Fin (tcTables nBuf tb) → BufTy
  | .hbm, ⟨0, _⟩ => ⟨S64x256x32x32, .f32⟩
  | .hbm, ⟨1, _⟩ => ⟨S256x16, .f32⟩
  | .hbm, ⟨2, _⟩ => ⟨S16, .f32⟩
  | .hbm, ⟨3, _⟩ => ⟨S16x256, .f32⟩
  | .hbm, ⟨4, _⟩ => ⟨S256, .f32⟩
  | .hbm, ⟨5, _⟩ => ⟨S1x16, .f32⟩
  | .hbm, ⟨6, _⟩ => ⟨S1x256, .f32⟩
  | .hbm, ⟨7, _⟩ => ⟨S64x256x1024, .f32⟩
  | .hbm, ⟨8, _⟩ => ⟨S64x256x1024, .f32⟩
  | .hbm, ⟨9, _⟩ => ⟨S64x256x32x32, .f32⟩
  | .local _ .vmem, ⟨0, _⟩ => ⟨S2x256x1024, .f32⟩
  | .local _ .vmem, ⟨1, _⟩ => ⟨S2x256x1024, .f32⟩
  | .local _ .vmem, ⟨2, _⟩ => ⟨S256x16, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S2x256x1024, .f32⟩
  | .local _ .vmem, ⟨7, _⟩ => ⟨S2x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  shapeCasts_S256_S1x256 : S256.ShapeCasts S1x256
  shapeCasts_S64x256x32x32_S64x256x1024 : S64x256x32x32.ShapeCasts S64x256x1024
  inb_S2x256x1024_S2x256x1024_0_0_0 : ∀ a, (![0, 0, 0] : Fin 3 → Nat) a + S2x256x1024.size a ≤ S2x256x1024.size a
  h_S2x256x1024 : 0 < S2x256x1024.numel
  shapeCasts_S2x256x1024_S2x256x1024 : S2x256x1024.ShapeCasts S2x256x1024
  reduces_S2x256x1024_S2x256 : S2x256x1024.Reduces [2] S2x256
  concatenates_S2x256_S2x256_S4x256_d0 : Shape.Concatenates [S2x256, S2x256] S4x256 0
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4x16 : S1x16.Broadcasts S4x16
  inb_S16x256_S16x256_0_0 : ∀ a, (![0, 0] : Fin 2 → Nat) a + S16x256.size a ≤ S16x256.size a
  h_S16x256 : 0 < S16x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4x256 : S1x256.Broadcasts S4x256
  slices_S4x256_o0_0_S2x256 : S4x256.Slices ![0, 0] S2x256
  slices_S4x256_o2_0_S2x256 : S4x256.Slices ![2, 0] S2x256
  shapeCasts_S2x256_S2x256x1 : S2x256.ShapeCasts S2x256x1
  broadcasts_S2x256x1_S2x256x1024 : S2x256x1.Broadcasts S2x256x1024
  shapeCasts_S64x256x1024_S64x256x32x32 : S64x256x1024.ShapeCasts S64x256x32x32
  dot_S4x256_S256x16_S4x16_1_0_0_1_n_n_wf : DotDims.WF S4x256 S256x16 S4x16 [1] [0] [0] [1] [] []
  dot_S4x16_S16x256_S4x256_1_0_0_1_n_n_wf : DotDims.WF S4x16 S16x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x1024.size a ≤ S64x256x1024.size a
  hwx0_0 : ∀ i : grid0.Coords, EltTy.bits .f32 = 32 ∨ (Rect.block (s := S64x256x1024) S2x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x256x1024.size a ≤ S64x256x1024.size a
  hwx0_5 : ∀ i : grid0.Coords, EltTy.bits .f32 = 32 ∨ (Rect.block (s := S64x256x1024) S2x256x1024.size (cc0_transform_5 i) (hinb0_5 i)).WholeWords (EltTy.packing .f32)

variable [Facts₀]

def dot_S4x256_S256x16_S4x16_1_0_0_1_n_n : DotDims S4x256 S256x16 S4x16 where
  lhsContracting := [1]
  rhsContracting := [0]
  lhsNonContracting := [0]
  rhsNonContracting := [1]
  lhsBatch := []
  rhsBatch := []
  wf := dot_S4x256_S256x16_S4x16_1_0_0_1_n_n_wf
def dot_S4x16_S16x256_S4x256_1_0_0_1_n_n : DotDims S4x16 S16x256 S4x256 where
  lhsContracting := [1]
  rhsContracting := [0]
  lhsNonContracting := [0]
  rhsNonContracting := [1]
  lhsBatch := []
  rhsBatch := []
  wf := dot_S4x16_S16x256_S4x256_1_0_0_1_n_n_wf

abbrev win0_0 : Pipeline.Window sig grid0 :=
  Pipeline.Window.ofSpec (Memref.whole main_v2) S2x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibReduceLast3.lean ====
/-
  A rank-3 array reduced along its last axis, read at an index, at the ideal values.

  For an `[a, b, k]` array `src`: the reduction by `+` along the last axis is, at `(i, j)`, `Σ_l src (i, j, l)`, and the
  reduction by `max` along the last axis is, at `(i, j)`, the fold of `max` from the accumulator's value over
  `src (i, j, l)`, `l < k`. Arbitrary extents and any float format. (The library states these over the reduced shape's
  own index `h.lift j l`; here the index is spelt by its three coordinates.)
-/
import Idealize.ShloMosaic.PureOps.Ideal.Laws
import Idealize.ShloMosaic.Lib.ValueIdx

noncomputable section

open scoped BigOperators

namespace Cert.LastAxis3

open Idealize.ShloMosaic Idealize.ShloMosaic.ValueIdx

/-- The sum along the last axis, at `(i, j)`: the sum of the entries `(i, j, l)`. -/
theorem sumLast_apply {a b k : ℕ} {φ : FTy} (src : FVec Ideal ⟨3, ![a, b, k]⟩ φ) (acc : BitVec φ.bits)
    (h : (⟨3, ![a, b, k]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin k, src (ix3 i j l) := by
  refine (Ideal.multiReduction_add_single src acc h hφ hacc (ix2 i j)).trans ?_
  refine Finset.sum_congr rfl fun l _ => ?_
  exact congrArg src (funext fun c => Fin.ext (by match c with | ⟨0, _⟩ => rfl | ⟨1, _⟩ => rfl | ⟨2, _⟩ => rfl))

/-- The maximum along the last axis, at `(i, j)`: the fold of `max` from the accumulator's value over the entries `(i, j, l)`. -/
theorem maxLast_apply {a b k : ℕ} {φ : FTy} (src : FVec Ideal ⟨3, ![a, b, k]⟩ φ) (acc : BitVec φ.bits)
    (h : (⟨3, ![a, b, k]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin k)).fold max (Ideal.ofBits φ acc) (fun l => src (ix3 i j l)) := by
  refine (Ideal.multiReduction_maximumf_single src acc h hφ hacc (ix2 i j)).trans ?_
  refine congrArg (Finset.fold max (Ideal.ofBits φ acc) · (Finset.univ : Finset (Fin k))) (funext fun l => ?_)
  exact congrArg src (funext fun c => Fin.ext (by match c with | ⟨0, _⟩ => rfl | ⟨1, _⟩ => rfl | ⟨2, _⟩ => rfl))

end Cert.LastAxis3

end
-- ==== Proof.Gate.lean ====
/-
  The channel gate of one image, as a function on the extended reals, and the one law that joins its two spellings.

  For one image `x` (256 channels of 1024 positions), a first layer `W1` (256 by 16) with bias row `B1`, a second
  layer `W2` (16 by 256) and a bias row: the pooled vectors are the mean of each channel (the sum of its 1024 entries
  times 2⁻¹⁰) and the maximum of each channel (the fold of `max` from -∞); a pooled vector `p` goes through the first
  layer and the rectifier, `hid p j = max (Σ_c p c · W1 (c, j) + B1 j) 0`. The two spellings of the pre-activation
  of output channel `c'`:
    fused     `Σ_j (hid avg j + hid mx j) · W2 (j, c') + B`     with `B = b2 c' · 2`,
    separate  `(Σ_j hid avg j · W2 (j, c') + b2 c') + (Σ_j hid mx j · W2 (j, c') + b2 c')`.
  They agree on ALL extended reals: `hid` is a maximum with `0`, hence nonnegative, and multiplication distributes
  over a sum of two nonnegative extended reals whatever the other factor is; a sum of sums regroups in any commutative
  monoid; and `b · 2 = b + b` because `2 = 1 + 1` is a sum of nonnegatives. No finiteness is used.
-/
import Idealize.ShloMosaic.PureOps.Ideal
import Idealize.ShloMosaic.PureOps.Ideal.Laws
import Idealize.ShloMosaic.Lib.ValueIdx

noncomputable section

open scoped BigOperators

namespace Cert.Gate

open Idealize.ShloMosaic Idealize.ShloMosaic.ValueIdx

/-- 2⁻¹⁰, the reciprocal of the 1024 positions, as both programs spell it. -/
abbrev invHW : EReal := Ideal.ofBits .f32 0x3A800000#32
/-- -∞, where the maximum starts. -/
abbrev negInf : EReal := Ideal.ofBits .f32 0xFF800000#32
/-- +0.0, the rectifier's floor (and the matrix unit's empty accumulator). -/
abbrev zeroW : EReal := Ideal.ofBits .f32 0x00000000#32
/-- 2.0, by which the fused spelling doubles the second bias. -/
abbrev twoW : EReal := Ideal.ofBits .f32 0x40000000#32

variable (W1 : (⟨2, ![256, 16]⟩ : Shape).Idx → EReal) (B1 : (⟨2, ![1, 16]⟩ : Shape).Idx → EReal)
  (W2 : (⟨2, ![16, 256]⟩ : Shape).Idx → EReal) (B : (⟨2, ![1, 256]⟩ : Shape).Idx → EReal)

/-- The mean of channel `c`. -/
def avg (x : Fin 256 → Fin 1024 → EReal) (c : Fin 256) : EReal := (∑ l : Fin 1024, x c l) * invHW

/-- The maximum of channel `c`. -/
def mx (x : Fin 256 → Fin 1024 → EReal) (c : Fin 256) : EReal :=
  (Finset.univ : Finset (Fin 1024)).fold max negInf (fun l => x c l)

/-- Hidden unit `j` of a pooled vector: the first layer, its bias, the rectifier. -/
def hid (p : Fin 256 → EReal) (j : Fin 16) : EReal :=
  max ((∑ c : Fin 256, p c * W1 (ix2 c j)) + B1 (ix2 (0 : Fin 1) j)) zeroW

/-- The fused pre-activation: the two hidden vectors added, then ONE second layer and the bias row `B`. -/
def attFused (x : Fin 256 → Fin 1024 → EReal) (c' : Fin 256) : EReal :=
  (∑ j : Fin 16, (hid W1 B1 (avg x) j + hid W1 B1 (mx x) j) * W2 (ix2 j c')) + B (ix2 (0 : Fin 1) c')

/-- The separate pre-activation: the second layer and the bias row `B` on each hidden vector, then added. -/
def attSep (x : Fin 256 → Fin 1024 → EReal) (c' : Fin 256) : EReal :=
  ((∑ j : Fin 16, hid W1 B1 (avg x) j * W2 (ix2 j c')) + B (ix2 (0 : Fin 1) c'))
    + ((∑ j : Fin 16, hid W1 B1 (mx x) j * W2 (ix2 j c')) + B (ix2 (0 : Fin 1) c'))

/-- The gate, fused spelling. -/
def gateFused (x : Fin 256 → Fin 1024 → EReal) (c' : Fin 256) : EReal := Ideal.logistic (attFused W1 B1 W2 B x c')
/-- The gate, separate spelling. -/
def gateSep (x : Fin 256 → Fin 1024 → EReal) (c' : Fin 256) : EReal := Ideal.logistic (attSep W1 B1 W2 B x c')

theorem zeroW_eq : zeroW = 0 := Ideal.ofBits_zero_f32

/-- The word of 2.0 is 1 + 1. -/
theorem twoW_eq : twoW = 1 + 1 := by
  have h : twoW = ((2 : ℝ) : EReal) := by
    simp [Ideal.ofBits, Ideal.ieee, -EReal.coe_mul]; norm_num
  rw [h, ← EReal.coe_one, ← EReal.coe_add]; norm_num

/-- A hidden unit is nonnegative: it is a maximum with zero. -/
theorem hid_nonneg (p : Fin 256 → EReal) (j : Fin 16) : 0 ≤ hid W1 B1 p j := by
  unfold hid; rw [zeroW_eq]; exact le_max_right _ _

/-- Doubling is adding to itself, on every extended real. -/
theorem mul_two_eq (b : EReal) : b * twoW = b + b := by
  rw [twoW_eq, EReal.left_distrib_of_nonneg zero_le_one zero_le_one, mul_one]

/-- THE LAW: with the fused spelling's bias row the doubled one, the two pre-activations agree. -/
theorem attFused_eq_attSep (B2 : (⟨2, ![1, 256]⟩ : Shape).Idx → EReal)
    (hB : ∀ c' : Fin 256, B (ix2 (0 : Fin 1) c') = B2 (ix2 (0 : Fin 1) c') * twoW)
    (x : Fin 256 → Fin 1024 → EReal) (c' : Fin 256) :
    attFused W1 B1 W2 B x c' = attSep W1 B1 W2 B2 x c' := by
  unfold attFused attSep
  rw [hB c', mul_two_eq]
  have h : (∑ j : Fin 16, (hid W1 B1 (avg x) j + hid W1 B1 (mx x) j) * W2 (ix2 j c'))
      = (∑ j : Fin 16, hid W1 B1 (avg x) j * W2 (ix2 j c')) + ∑ j : Fin 16, hid W1 B1 (mx x) j * W2 (ix2 j c') := by
    rw [← Finset.sum_add_distrib]
    exact Finset.sum_congr rfl fun j _ => EReal.right_distrib_of_nonneg (hid_nonneg W1 B1 _ j) (hid_nonneg W1 B1 _ j)
  rw [h, add_add_add_comm]

/-- So the two gates agree. -/
theorem gateFused_eq_gateSep (B2 : (⟨2, ![1, 256]⟩ : Shape).Idx → EReal)
    (hB : ∀ c' : Fin 256, B (ix2 (0 : Fin 1) c') = B2 (ix2 (0 : Fin 1) c') * twoW)
    (x : Fin 256 → Fin 1024 → EReal) (c' : Fin 256) :
    gateFused W1 B1 W2 B x c' = gateSep W1 B1 W2 B2 x c' := by
  unfold gateFused gateSep; rw [attFused_eq_attSep W1 B1 W2 B B2 hB]

end Cert.Gate

end
-- ==== Proof.Body.lean ====
/-
  The gate computed on a block of `n` images, read at an index.

  Both programs compute the gate on a block `X` of `n` images at once (`n` = 16 in one, 2 in the other): the channel
  sums (times 2⁻¹⁰) and channel maxima of the block, `[n, 256]` each, are stacked into ONE `[n2, 256]` matrix
  (`n2 = n + n`: the means on top, the maxima below), which goes through the first layer, its bias row and the
  rectifier in one matrix product (`hiddenVec`). Row `r` of the top half is the hidden vector of image `r`'s means and
  row `n + r` that of its maxima, because a matrix product, a row broadcast and a pointwise maximum act row by row
  (`hiddenVec_lo`, `hiddenVec_hi`). After that the two programs differ: one adds the two halves and applies the second
  layer once (`fusedVec`), the other applies the second layer to the stack and adds the halves of the result
  (`sepVec`); at image `r` and channel `c'` they are `Gate.gateFused` and `Gate.gateSep` of image `r`'s rows of `X`
  (`fusedVec_apply`, `sepVec_apply`). `scaledVec_apply` reads the block multiplied by its gate along the positions.
-/
import Idealize.ShloMosaic.PureOps.Ideal.Laws
import Idealize.ShloMosaic.Lib.ValueIdx
import Idealize.ShloMosaic.Lib.ValueLayout
import Idealize.ShloMosaic.Lib.Pipeline.Value
import proofs.«130691_g2000301520905045_pallasbulk_16_24_alg».proof.Proof.LibMatmulPlain
import proofs.«130691_g2000301520905045_pallasbulk_16_24_alg».proof.Proof.LibReduceLast3
import proofs.«130691_g2000301520905045_pallasbulk_16_24_alg».proof.Proof.Gate

noncomputable section

open scoped BigOperators

namespace Cert.Body

open Idealize.ShloMosaic Idealize.ShloMosaic.ValueIdx

/-! ## The stacked hidden layer -/

variable {n n2 : ℕ}
variable (X : FVec Ideal ⟨3, ![n, 256, 1024]⟩ .f32) (W1 : FVec Ideal ⟨2, ![256, 16]⟩ .f32) (B1 : FVec Ideal ⟨2, ![1, 16]⟩ .f32)
  (W2 : FVec Ideal ⟨2, ![16, 256]⟩ .f32) (B : FVec Ideal ⟨2, ![1, 256]⟩ .f32)
  (D1 : DotDims ⟨2, ![n2, 256]⟩ ⟨2, ![256, 16]⟩ ⟨2, ![n2, 16]⟩)
  (hscX : (⟨3, ![n, 256, 1024]⟩ : Shape).ShapeCasts ⟨3, ![n, 256, 1024]⟩)
  (hred : (⟨3, ![n, 256, 1024]⟩ : Shape).Reduces [2] ⟨2, ![n, 256]⟩)
  (hcat : Shape.Concatenates [⟨2, ![n, 256]⟩, ⟨2, ![n, 256]⟩] ⟨2, ![n2, 256]⟩ 0)
  (hscB1 : (⟨2, ![1, 16]⟩ : Shape).ShapeCasts ⟨2, ![1, 16]⟩)
  (hbcB1 : (⟨2, ![1, 16]⟩ : Shape).Broadcasts ⟨2, ![n2, 16]⟩)

/-- The block's means over its maxima, as one `[n2, 256]` matrix. -/
def pooledVec : FVec Ideal ⟨2, ![n2, 256]⟩ .f32 :=
  concatenate ⟨2, ![n2, 256]⟩ 0
    [⟨⟨2, ![n, 256]⟩, mulf (multiReduction .add [2] ⟨2, ![n, 256]⟩ (shapeCast ⟨3, ![n, 256, 1024]⟩ X hscX) 0x00000000#32 hred (.inl rfl) rfl)
        (broadcast ⟨2, ![n, 256]⟩ (Scalar.ofBits .f32 0x3A800000#32))⟩,
     ⟨⟨2, ![n, 256]⟩, multiReduction .maximumf [2] ⟨2, ![n, 256]⟩ (shapeCast ⟨3, ![n, 256, 1024]⟩ X hscX) 0xFF800000#32 hred (.inl rfl) rfl⟩]
    hcat

/-- The stack through the first layer, its bias row and the rectifier. -/
def hiddenVec : FVec Ideal ⟨2, ![n2, 16]⟩ .f32 :=
  maximumf
    (addf (matmul D1 none (pooledVec X hscX hred hcat) W1 (constant ⟨2, ![n2, 16]⟩ .f32 0x00000000#32))
      (broadcastTo ⟨2, ![n2, 16]⟩ (shapeCast ⟨2, ![1, 16]⟩ B1 hscB1) hbcB1))
    (broadcast ⟨2, ![n2, 16]⟩ (Scalar.ofBits .f32 0x00000000#32))

/-- A row of the top half of the stack: the means of that image. -/
theorem pooledVec_lo (q : Fin n2) (r : Fin n) (hq : q.val = r.val) (c : Fin 256) :
    pooledVec X hscX hred hcat (ix2 q c) = Gate.avg (fun c l => X (ix3 r c l)) c := by
  unfold pooledVec
  refine (concatenate_pair_apply_left (t := ⟨2, ![n2, 256]⟩) (s₁ := ⟨2, ![n, 256]⟩) (s₂ := ⟨2, ![n, 256]⟩) (0 : Fin 2) _ _ hcat (ix2 q c) rfl (ix2 r c) (fun b => by
    match b with
    | ⟨0, _⟩ => exact hq.symm
    | ⟨1, _⟩ => rfl)).trans ?_
  show multiReduction .add [2] ⟨2, ![n, 256]⟩ (shapeCast ⟨3, ![n, 256, 1024]⟩ X hscX) 0x00000000#32 hred (.inl rfl) rfl (ix2 r c)
      * Ideal.ofBits .f32 0x3A800000#32 = _
  refine (congrArg (· * Ideal.ofBits .f32 0x3A800000#32) (LastAxis3.sumLast_apply _ _ hred _ _ r c)).trans ?_
  rw [shapeCast_self]
  rfl

/-- A row of the bottom half: the maxima of that image. -/
theorem pooledVec_hi (q : Fin n2) (r : Fin n) (hq : q.val = n + r.val) (c : Fin 256) :
    pooledVec X hscX hred hcat (ix2 q c) = Gate.mx (fun c l => X (ix3 r c l)) c := by
  unfold pooledVec
  refine (concatenate_pair_apply_right (t := ⟨2, ![n2, 256]⟩) (s₁ := ⟨2, ![n, 256]⟩) (s₂ := ⟨2, ![n, 256]⟩) (0 : Fin 2) _ _ hcat (ix2 q c) rfl rfl (ix2 r c) (fun b hb => by
    match b with
    | ⟨0, _⟩ => exact absurd rfl hb
    | ⟨1, _⟩ => rfl) (by show r.val + n = q.val; omega)).trans ?_
  refine (LastAxis3.maxLast_apply _ _ hred _ _ r c).trans ?_
  rw [shapeCast_self]
  rfl

/-- A row of the hidden stack is the hidden vector of that row of the pooled stack. -/
theorem hiddenVec_apply (hD1 : D1 = DotDims.plain n2 256 16) (p : Fin 256 → EReal) (q : Fin n2)
    (hp : ∀ c : Fin 256, pooledVec X hscX hred hcat (ix2 q c) = p c) (j : Fin 16) :
    hiddenVec X W1 B1 D1 hscX hred hcat hscB1 hbcB1 (ix2 q j) = Gate.hid W1 B1 p j := by
  subst hD1
  unfold hiddenVec Gate.hid
  show max (matmul (DotDims.plain n2 256 16) none (pooledVec X hscX hred hcat) W1 (constant (F := Ideal) ⟨2, ![n2, 16]⟩ .f32 0x00000000#32) (ix2 q j)
      + broadcastTo ⟨2, ![n2, 16]⟩ (shapeCast ⟨2, ![1, 16]⟩ B1 hscB1) hbcB1 (ix2 q j)) (Ideal.ofBits .f32 0x00000000#32) = _
  rw [MatmulPlain.matmul_zero_apply, broadcastTo_1b_ab_apply, shapeCast_self]
  refine congrArg₂ max (congrArg₂ (· + ·) (Finset.sum_congr rfl fun c _ => ?_) rfl) rfl
  show pooledVec X hscX hred hcat (ix2 q c) * W1 (ix2 c j) = _
  rw [hp c]

theorem hiddenVec_lo (hD1 : D1 = DotDims.plain n2 256 16) (q : Fin n2) (r : Fin n) (hq : q.val = r.val) (j : Fin 16) :
    hiddenVec X W1 B1 D1 hscX hred hcat hscB1 hbcB1 (ix2 q j) = Gate.hid W1 B1 (Gate.avg fun c l => X (ix3 r c l)) j :=
  hiddenVec_apply X W1 B1 D1 hscX hred hcat hscB1 hbcB1 hD1 _ q (fun c => pooledVec_lo X hscX hred hcat q r hq c) j

theorem hiddenVec_hi (hD1 : D1 = DotDims.plain n2 256 16) (q : Fin n2) (r : Fin n) (hq : q.val = n + r.val) (j : Fin 16) :
    hiddenVec X W1 B1 D1 hscX hred hcat hscB1 hbcB1 (ix2 q j) = Gate.hid W1 B1 (Gate.mx fun c l => X (ix3 r c l)) j :=
  hiddenVec_apply X W1 B1 D1 hscX hred hcat hscB1 hbcB1 hD1 _ q (fun c => pooledVec_hi X hscX hred hcat q r hq c) j

/-! ## The second layer, in the two orders -/

variable (D2f : DotDims ⟨2, ![n, 16]⟩ ⟨2, ![16, 256]⟩ ⟨2, ![n, 256]⟩)
  (hsl0 : (⟨2, ![n2, 16]⟩ : Shape).Slices ![0, 0] ⟨2, ![n, 16]⟩)
  (hsl1 : (⟨2, ![n2, 16]⟩ : Shape).Slices ![n, 0] ⟨2, ![n, 16]⟩)
  (hscB : (⟨2, ![1, 256]⟩ : Shape).ShapeCasts ⟨2, ![1, 256]⟩)
  (hbcBn : (⟨2, ![1, 256]⟩ : Shape).Broadcasts ⟨2, ![n, 256]⟩)

/-- The two halves of the hidden stack added, ONE second layer, the bias row, the logistic function. -/
def fusedVec : FVec Ideal ⟨2, ![n, 256]⟩ .f32 :=
  logistic (addf
    (matmul D2f none
      (addf (extractStridedSlice ⟨2, ![n, 16]⟩ ![0, 0] (hiddenVec X W1 B1 D1 hscX hred hcat hscB1 hbcB1) hsl0)
        (extractStridedSlice ⟨2, ![n, 16]⟩ ![n, 0] (hiddenVec X W1 B1 D1 hscX hred hcat hscB1 hbcB1) hsl1))
      W2 (constant ⟨2, ![n, 256]⟩ .f32 0x00000000#32))
    (broadcastTo ⟨2, ![n, 256]⟩ (shapeCast ⟨2, ![1, 256]⟩ B hscB) hbcBn))

/-- At image `r` and channel `c'` it is the fused gate of image `r`'s rows. -/
theorem fusedVec_apply (hD1 : D1 = DotDims.plain n2 256 16) (hD2 : D2f = DotDims.plain n 16 256) (hn : n2 = n + n)
    (r : Fin n) (c' : Fin 256) :
    fusedVec X W1 B1 W2 B D1 hscX hred hcat hscB1 hbcB1 D2f hsl0 hsl1 hscB hbcBn (ix2 r c')
      = Gate.gateFused W1 B1 W2 B (fun c l => X (ix3 r c l)) c' := by
  subst hD2
  unfold fusedVec Gate.gateFused Gate.attFused
  show Ideal.logistic (matmul (DotDims.plain n 16 256) none _ W2 (constant (F := Ideal) ⟨2, ![n, 256]⟩ .f32 0x00000000#32) (ix2 r c')
      + broadcastTo ⟨2, ![n, 256]⟩ (shapeCast ⟨2, ![1, 256]⟩ B hscB) hbcBn (ix2 r c')) = _
  rw [MatmulPlain.matmul_zero_apply, broadcastTo_1b_ab_apply, shapeCast_self]
  refine congrArg Ideal.logistic (congrArg₂ (· + ·) (Finset.sum_congr rfl fun j _ => ?_) rfl)
  show (extractStridedSlice ⟨2, ![n, 16]⟩ ![0, 0] (hiddenVec X W1 B1 D1 hscX hred hcat hscB1 hbcB1) hsl0 (ix2 r j)
      + extractStridedSlice ⟨2, ![n, 16]⟩ ![n, 0] (hiddenVec X W1 B1 D1 hscX hred hcat hscB1 hbcB1) hsl1 (ix2 r j)) * W2 (ix2 j c') = _
  have hr := r.isLt
  rw [slice2_axis0_apply 0 _ hsl0 r j (⟨r.val, by omega⟩ : Fin n2) (by simp),
    slice2_axis0_apply n _ hsl1 r j (⟨n + r.val, by omega⟩ : Fin n2) rfl,
    hiddenVec_lo X W1 B1 D1 hscX hred hcat hscB1 hbcB1 hD1 _ r rfl j,
    hiddenVec_hi X W1 B1 D1 hscX hred hcat hscB1 hbcB1 hD1 _ r rfl j]

variable (D2s : DotDims ⟨2, ![n2, 16]⟩ ⟨2, ![16, 256]⟩ ⟨2, ![n2, 256]⟩)
  (hbcB2 : (⟨2, ![1, 256]⟩ : Shape).Broadcasts ⟨2, ![n2, 256]⟩)
  (hsr0 : (⟨2, ![n2, 256]⟩ : Shape).Slices ![0, 0] ⟨2, ![n, 256]⟩)
  (hsr1 : (⟨2, ![n2, 256]⟩ : Shape).Slices ![n, 0] ⟨2, ![n, 256]⟩)

/-- The second layer and the bias row on the whole hidden stack. -/
def attStack : FVec Ideal ⟨2, ![n2, 256]⟩ .f32 :=
  addf (matmul D2s none (hiddenVec X W1 B1 D1 hscX hred hcat hscB1 hbcB1) W2 (constant ⟨2, ![n2, 256]⟩ .f32 0x00000000#32))
    (broadcastTo ⟨2, ![n2, 256]⟩ (shapeCast ⟨2, ![1, 256]⟩ B hscB) hbcB2)

/-- The two halves of that added, the logistic function. -/
def sepVec : FVec Ideal ⟨2, ![n, 256]⟩ .f32 :=
  logistic (addf
    (extractStridedSlice ⟨2, ![n, 256]⟩ ![0, 0] (attStack X W1 B1 W2 B D1 hscX hred hcat hscB1 hbcB1 hscB D2s hbcB2) hsr0)
    (extractStridedSlice ⟨2, ![n, 256]⟩ ![n, 0] (attStack X W1 B1 W2 B D1 hscX hred hcat hscB1 hbcB1 hscB D2s hbcB2) hsr1))

/-- A row of the stack after the second layer: that row of the hidden stack against the columns of `W2`, plus the bias. -/
theorem attStack_apply (hD2 : D2s = DotDims.plain n2 16 256) (q : Fin n2) (c' : Fin 256) :
    attStack X W1 B1 W2 B D1 hscX hred hcat hscB1 hbcB1 hscB D2s hbcB2 (ix2 q c')
      = (∑ j : Fin 16, hiddenVec X W1 B1 D1 hscX hred hcat hscB1 hbcB1 (ix2 q j) * W2 (ix2 j c')) + B (ix2 (0 : Fin 1) c') := by
  subst hD2
  unfold attStack
  show matmul (DotDims.plain n2 16 256) none _ W2 (constant (F := Ideal) ⟨2, ![n2, 256]⟩ .f32 0x00000000#32) (ix2 q c')
      + broadcastTo ⟨2, ![n2, 256]⟩ (shapeCast ⟨2, ![1, 256]⟩ B hscB) hbcB2 (ix2 q c') = _
  rw [MatmulPlain.matmul_zero_apply, broadcastTo_1b_ab_apply, shapeCast_self]
  rfl

/-- At image `r` and channel `c'` it is the separate gate of image `r`'s rows. -/
theorem sepVec_apply (hD1 : D1 = DotDims.plain n2 256 16) (hD2 : D2s = DotDims.plain n2 16 256) (hn : n2 = n + n)
    (r : Fin n) (c' : Fin 256) :
    sepVec X W1 B1 W2 B D1 hscX hred hcat hscB1 hbcB1 hscB D2s hbcB2 hsr0 hsr1 (ix2 r c')
      = Gate.gateSep W1 B1 W2 B (fun c l => X (ix3 r c l)) c' := by
  unfold sepVec Gate.gateSep Gate.attSep
  have hr := r.isLt
  show Ideal.logistic (extractStridedSlice ⟨2, ![n, 256]⟩ ![0, 0] (attStack X W1 B1 W2 B D1 hscX hred hcat hscB1 hbcB1 hscB D2s hbcB2) hsr0 (ix2 r c')
      + extractStridedSlice ⟨2, ![n, 256]⟩ ![n, 0] (attStack X W1 B1 W2 B D1 hscX hred hcat hscB1 hbcB1 hscB D2s hbcB2) hsr1 (ix2 r c')) = _
  rw [slice2_axis0_apply 0 _ hsr0 r c' (⟨r.val, by omega⟩ : Fin n2) (by simp),
    slice2_axis0_apply n _ hsr1 r c' (⟨n + r.val, by omega⟩ : Fin n2) rfl,
    attStack_apply X W1 B1 W2 B D1 hscX hred hcat hscB1 hbcB1 hscB D2s hbcB2 hD2,
    attStack_apply X W1 B1 W2 B D1 hscX hred hcat hscB1 hbcB1 hscB D2s hbcB2 hD2]
  refine congrArg Ideal.logistic (congrArg₂ (· + ·) (congrArg₂ (· + ·) (Finset.sum_congr rfl fun j _ => ?_) rfl)
    (congrArg₂ (· + ·) (Finset.sum_congr rfl fun j _ => ?_) rfl))
  · rw [hiddenVec_lo X W1 B1 D1 hscX hred hcat hscB1 hbcB1 hD1 _ r rfl j]
  · rw [hiddenVec_hi X W1 B1 D1 hscX hred hcat hscB1 hbcB1 hD1 _ r rfl j]

/-! ## The block times its gate -/

variable (hsc21 : (⟨2, ![n, 256]⟩ : Shape).ShapeCasts ⟨3, ![n, 256, 1]⟩)
  (hbc3 : (⟨3, ![n, 256, 1]⟩ : Shape).Broadcasts ⟨3, ![n, 256, 1024]⟩)

/-- The block multiplied, along the positions, by a gate `S` of one value per image and channel. -/
def scaledVec (S : FVec Ideal ⟨2, ![n, 256]⟩ .f32) : FVec Ideal ⟨3, ![n, 256, 1024]⟩ .f32 :=
  mulf (shapeCast ⟨3, ![n, 256, 1024]⟩ X hscX)
    (broadcastTo ⟨3, ![n, 256, 1024]⟩ (shapeCast ⟨3, ![n, 256, 1]⟩ S hsc21) hbc3)

/-- At `(r, c, l)`: the entry times the gate of `(r, c)`. -/
theorem scaledVec_apply (S : FVec Ideal ⟨2, ![n, 256]⟩ .f32) (r : Fin n) (c : Fin 256) (l : Fin 1024) :
    scaledVec X hscX hsc21 hbc3 S (ix3 r c l) = X (ix3 r c l) * S (ix2 r c) := by
  unfold scaledVec
  show shapeCast ⟨3, ![n, 256, 1024]⟩ X hscX (ix3 r c l)
      * broadcastTo ⟨3, ![n, 256, 1024]⟩ (shapeCast ⟨3, ![n, 256, 1]⟩ S hsc21) hbc3 (ix3 r c l) = _
  rw [shapeCast_self]
  refine congrArg (X (ix3 r c l) * ·) ?_
  have hr := r.isLt
  refine (broadcastTo_apply _ hbc3 (ix3 r c l) (ix3 r c (0 : Fin 1)) fun a => ?_).trans ?_
  · match a with
    | ⟨0, _⟩ =>
      show r.val = if n = 1 then 0 else r.val
      split
      · omega
      · rfl
    | ⟨1, _⟩ =>
      show c.val = if (256 : ℕ) = 1 then 0 else c.val
      rw [if_neg (by decide)]
    | ⟨2, _⟩ =>
      show (0 : ℕ) = if (1 : ℕ) = 1 then 0 else l.val
      rw [if_pos rfl]
  · refine shapeCast_apply S hsc21 _ _ ?_
    rw [Shape.rowMajor_val_two, Shape.rowMajor_val_three]
    show r.val * 256 + c.val = (r.val * 256 + c.val) * 1 + 0
    omega

end Cert.Body

end
-- ==== Proof.KernelPay.lean ====
/-
  What the gate-only program's body stores, read at an index.

  The body works on a block of 16 images: it is the stacked hidden layer of that block (16 rows of means over 16 rows
  of maxima), the two halves added, one second layer, the bias row and the logistic function — `Body.fusedVec` at
  block size 16, term for term. So the stored value at image `r` of the block and channel `c'` is the fused gate of
  that image's 256 × 1024 entries.
-/
import proofs.«130691_g2000301520905045_pallasbulk_16_24_alg».proof.Proof.Gen.KernelIdeal.Skeleton
import proofs.«130691_g2000301520905045_pallasbulk_16_24_alg».proof.Proof.Body

noncomputable section

namespace Cert.KernelIdeal.Hand

open Idealize.ShloMosaic Idealize.ShloMosaic.ValueIdx Cert.KernelIdeal Cert.KernelIdeal.Gen

/-- The stored value is the fused spelling on a block of 16. -/
theorem pay_eq (x0 : Vec Ideal S16x256x1024 .f32) (x1 : Vec Ideal S256x16 .f32) (x2 : Vec Ideal S1x16 .f32)
    (x3 : Vec Ideal S16x256 .f32) (x4 : Vec Ideal S1x256 .f32) :
    k0_pay1 x0 x1 x2 x3 x4
      = Body.fusedVec (n := 16) (n2 := 32) x0 x1 x2 x3 x4 dot_S32x256_S256x16_S32x16_1_0_0_1_n_n
          Gen.shapeCasts_S16x256x1024_S16x256x1024 Gen.reduces_S16x256x1024_S16x256 Gen.concatenates_S16x256_S16x256_S32x256_d0
          Gen.shapeCasts_S1x16_S1x16 Gen.broadcasts_S1x16_S32x16 dot_S16x16_S16x256_S16x256_1_0_0_1_n_n
          Gen.slices_S32x16_o0_0_S16x16 Gen.slices_S32x16_o16_0_S16x16 Gen.shapeCasts_S1x256_S1x256 Gen.broadcasts_S1x256_S16x256 := rfl

/-- At image `r` of the block and channel `c'`: the fused gate of that image's entries. -/
theorem pay_apply (x0 : Vec Ideal S16x256x1024 .f32) (x1 : Vec Ideal S256x16 .f32) (x2 : Vec Ideal S1x16 .f32)
    (x3 : Vec Ideal S16x256 .f32) (x4 : Vec Ideal S1x256 .f32) (r : Fin 16) (c' : Fin 256) :
    k0_pay1 x0 x1 x2 x3 x4 (ix2 r c') = Gate.gateFused x1 x2 x3 x4 (fun c l => x0 (ix3 r c l)) c' := by
  rw [pay_eq]
  exact Body.fusedVec_apply (n := 16) (n2 := 32) x0 x1 x2 x3 x4 _ _ _ _ _ _ _ _ _ _ _ rfl rfl rfl r c'

end Cert.KernelIdeal.Hand

end
-- ==== Proof.KernelValue.lean ====
/-
  What the gate-only program's region leaves in its result array, and what the program returns.

  The region's grid has 4 points; point `t` stages images `16 t … 16 t + 15` of the flattened input (all 256 channels,
  all 1024 positions), the two weight matrices and the two bias rows whole, and writes back rows `16 t … 16 t + 15` of
  the `[64, 256]` gate array. By the body's reading (`pay_apply`) entry `(r, c')` of what point `t` writes back is the
  fused gate of image `16 t + r` at channel `c'` — the block at `t` of ONE function `scale` of the arrays as the region
  finds them. The 4 blocks tile the 64 rows, so after the region the gate array is `scale`. The three host lines after
  the region broadcast the gate over the 32 × 32 positions and multiply the input by it.
-/
import proofs.«130691_g2000301520905045_pallasbulk_16_24_alg».proof.Proof.Gen.KernelIdeal.Frame
import proofs.«130691_g2000301520905045_pallasbulk_16_24_alg».proof.Proof.KernelPay
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The gate array as a function of the arrays the region finds: at `(b, c')` the fused gate of image `b`. -/
def scale (c : Dev nD) : S64x256.Idx → Elt Ideal .f32 := fun i =>
  Gate.gateFused (V m c main_arg1 : S256x16.Idx → Elt Ideal .f32) (V m c main_v0 : S1x16.Idx → Elt Ideal .f32)
    (V m c main_arg3 : S16x256.Idx → Elt Ideal .f32) (V m c main_v3 : S1x256.Idx → Elt Ideal .f32)
    (fun ch l => (V m c main_v4 : S64x256x1024.Idx → Elt Ideal .f32) (ix3 (i 0) ch l)) (i 1)

/-- The printed index maps over the grid: the input and the result move one block of 16 images per point, the weights
    and bias rows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input block at point `t` is images `16 t … 16 t + 15`. -/
theorem iblk0_apply (c : Dev nD) (t : Fin cfg0.N) (r : Fin 16) (ch : Fin 256) (l : Fin 1024) (b : Fin 64)
    (hb : b.val = t.val * 16 + r.val) :
    (iblk m c 0 t : Vec Ideal S16x256x1024 .f32) (ix3 r ch l)
      = (V m c main_v4 : S64x256x1024.Idx → Elt Ideal .f32) (ix3 b ch l) := by
  obtain ⟨e0, e1, e2, -⟩ := idx_facts t
  unfold iblk
  rw [View.read_apply]
  show V m c main_v4 _ = V m c main_v4 _
  congr 1
  funext a
  apply Fin.ext
  match a with
  | ⟨0, _⟩ => show win0_0.index t (0 : Fin 3) * 16 + 1 * r.val = b.val; omega
  | ⟨1, _⟩ => show win0_0.index t (1 : Fin 3) * 256 + 1 * ch.val = ch.val; omega
  | ⟨2, _⟩ => show win0_0.index t (2 : Fin 3) * 1024 + 1 * l.val = l.val; omega

/-- The first layer's block is the whole matrix, at every point. -/
theorem iblk1_eq (c : Dev nD) (t : Fin cfg0.N) :
    (iblk m c 1 t : Vec Ideal S256x16 .f32) = (V m c main_arg1 : S256x16.Idx → Elt Ideal .f32) := by
  obtain ⟨-, -, -, e0, e1, -⟩ := idx_facts t
  funext x
  unfold iblk
  rw [View.read_apply]
  show V m c main_arg1 _ = V m c main_arg1 _
  congr 1
  funext a
  apply Fin.ext
  match a with
  | ⟨0, _⟩ => show win0_1.index t (0 : Fin 2) * 256 + 1 * (x 0).val = (x 0).val; omega
  | ⟨1, _⟩ => show win0_1.index t (1 : Fin 2) * 16 + 1 * (x 1).val = (x 1).val; omega

/-- The first bias row's block is the whole row. -/
theorem iblk2_eq (c : Dev nD) (t : Fin cfg0.N) :
    (iblk m c 2 t : Vec Ideal S1x16 .f32) = (V m c main_v0 : S1x16.Idx → Elt Ideal .f32) := by
  obtain ⟨-, -, -, -, -, e0, e1, -⟩ := idx_facts t
  funext x
  unfold iblk
  rw [View.read_apply]
  show V m c main_v0 _ = V m c main_v0 _
  congr 1
  funext a
  apply Fin.ext
  match a with
  | ⟨0, _⟩ => show win0_2.index t (0 : Fin 2) * 1 + 1 * (x 0).val = (x 0).val; omega
  | ⟨1, _⟩ => show win0_2.index t (1 : Fin 2) * 16 + 1 * (x 1).val = (x 1).val; omega

/-- The second layer's block is the whole matrix. -/
theorem iblk3_eq (c : Dev nD) (t : Fin cfg0.N) :
    (iblk m c 3 t : Vec Ideal S16x256 .f32) = (V m c main_arg3 : S16x256.Idx → Elt Ideal .f32) := by
  obtain ⟨-, -, -, -, -, -, -, e0, e1, -⟩ := idx_facts t
  funext x
  unfold iblk
  rw [View.read_apply]
  show V m c main_arg3 _ = V m c main_arg3 _
  congr 1
  funext a
  apply Fin.ext
  match a with
  | ⟨0, _⟩ => show win0_3.index t (0 : Fin 2) * 16 + 1 * (x 0).val = (x 0).val; omega
  | ⟨1, _⟩ => show win0_3.index t (1 : Fin 2) * 256 + 1 * (x 1).val = (x 1).val; omega

/-- The doubled second bias row's block is the whole row. -/
theorem iblk4_eq (c : Dev nD) (t : Fin cfg0.N) :
    (iblk m c 4 t : Vec Ideal S1x256 .f32) = (V m c main_v3 : S1x256.Idx → Elt Ideal .f32) := by
  obtain ⟨-, -, -, -, -, -, -, -, -, e0, e1, -⟩ := idx_facts t
  funext x
  unfold iblk
  rw [View.read_apply]
  show V m c main_v3 _ = V m c main_v3 _
  congr 1
  funext a
  apply Fin.ext
  match a with
  | ⟨0, _⟩ => show win0_4.index t (0 : Fin 2) * 1 + 1 * (x 0).val = (x 0).val; omega
  | ⟨1, _⟩ => show win0_4.index t (1 : Fin 2) * 256 + 1 * (x 1).val = (x 1).val; omega

/-- What the body stores at point `t`, at image `r` of the block and channel `c'`: `scale` at image `16 t + r`. -/
theorem point_eq (c : Dev nD) (t : Fin cfg0.N) (r : Fin 16) (c' : Fin 256) (i : S64x256.Idx)
    (hi0 : (i 0).val = t.val * 16 + r.val) (hi1 : (i 1).val = c'.val) :
    k0_pay1 (iblk m c 0 t) (iblk m c 1 t) (iblk m c 2 t) (iblk m c 3 t) (iblk m c 4 t) (ix2 r c') = scale m c i := by
  refine (pay_apply (iblk m c 0 t) (iblk m c 1 t) (iblk m c 2 t) (iblk m c 3 t) (iblk m c 4 t) r c').trans ?_
  rw [iblk1_eq, iblk2_eq, iblk3_eq, iblk4_eq]
  unfold scale
  have h1 : c' = i 1 := Fin.ext hi1.symm
  subst h1
  refine congrArg (fun x => Gate.gateFused _ _ _ _ x (i 1)) ?_
  funext ch l
  exact iblk0_apply m c t r ch l (i 0) hi0

/-- WHAT POINT `t` WRITES BACK is block `t` of `scale`. -/
theorem flushed_eq (c : Dev nD) (t : Fin cfg0.N) :
    (dats m 0 c).flushed 5 t = ((cfg0.win 5).blk t).view.read (Elt Ideal) (scale m c) := by
  show (cfg0.win 5).cut (grid0.coords t) ((dats m 0 c).after 5 t) = _
  rw [after0_5]
  unfold out0_5
  rw [View.canon_unit_zero hz2]
  simp only [View.ld_unit_zero (S := S16x256x1024) hz3, View.ld_unit_zero (S := S256x16) hz2, View.ld_unit_zero (S := S1x16) hz2,
    View.ld_unit_zero (S := S16x256) hz2, View.ld_unit_zero (S := S1x256) hz2]
  obtain ⟨-, -, -, -, -, -, -, -, -, -, -, e0, e1⟩ := idx_facts t
  funext j
  have hj : j = ix2 (n0 := 16) (n1 := 256) (j 0) (j 1) := eq_ix2 (n0 := 16) (n1 := 256) j
  show k0_pay1 (iblk m c 0 t) (iblk m c 1 t) (iblk m c 2 t) (iblk m c 3 t) (iblk m c 4 t) j
    = scale m c (((cfg0.win 5).blk t).view.emb j)
  rw [hj]
  refine point_eq m c t (j 0) (j 1) _ ?_ ?_
  · show win0_5.index t (0 : Fin 2) * 16 + 1 * (j 0).val = t.val * 16 + (j 0).val; omega
  · show win0_5.index t (1 : Fin 2) * 256 + 1 * (j 1).val = (j 1).val; omega

/-- An index of the gate array is in point `t`'s block iff each coordinate is in the block's range on its axis. -/
theorem mem_blk (t : Fin cfg0.N) (i : S64x256.Idx) :
    i ∈ ((cfg0.win 5).blk t).view.set ↔ ∀ a : Fin 2, win0_5.index t a * S16x256.size a ≤ (i a).val ∧ (i a).val < win0_5.index t a * S16x256.size a + S16x256.size a := by
  show i ∈ ((View.whole main_v5).slice (win0_5.rect t)).set ↔ _
  rw [View.set_slice_whole, Rect.mem_set_unit]
  exact Iff.rfl

/-- Every row of the gate array is in the block of the point `row / 16`. -/
theorem cover (i : S64x256.Idx) : ∃ t : Fin cfg0.N, (cfg0.win 5).flush t = true ∧ i ∈ ((cfg0.win 5).blk t).view.set := by
  have hi0 : (i 0).val < 64 := (i 0).isLt
  have hi1 : (i 1).val < 256 := (i 1).isLt
  have hN : cfg0.N = 4 := N_0
  let t : Fin cfg0.N := ⟨(i 0).val / 16, by rw [hN]; omega⟩
  obtain ⟨-, -, -, -, -, -, -, -, -, -, -, e0, e1⟩ := idx_facts t
  have ht : t.val = (i 0).val / 16 := rfl
  refine ⟨t, flush0_5 t, ?_⟩
  rw [mem_blk]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 256 ≤ (i 1).val ∧ (i 1).val < win0_5.index t (1 : Fin 2) * 256 + 256; omega

/-- THE GATE ARRAY after the region is `scale`. -/
theorem final (c : Dev nD) : (dats m 0 c).arrAt 5 cfg0.N = scale m c :=
  (dats m 0 c).arrAt_eq_of_cover 5 (scale m c) (fun t _ => flushed_eq m c t) cover

end Cert.KernelIdeal.Hand

end
-- ==== Proof.Whole.lean ====
/-
  The two programs' results as functions of the five argument arrays, and their equality.

  `x` is `[64, 256, 32, 32]`; both programs flatten the 32 × 32 positions to 1024 (`flat`), reshape the first bias to a
  row, and reshape the second bias to a row — one of them after doubling it. Then
    the gate-only program returns `x · broadcast (scaleArr …)`: the `[64, 256]` array of fused gates, broadcast over the
      positions, times `x`;
    the all-in-one program returns the `[64, 256, 1024]` array `flat x · separate gate` (`gatedArr`), reshaped back to
      `[64, 256, 32, 32]`.
  At `(b, c, h, w)` both are `x (b, c, h, w)` times the gate of image `b` at channel `c`: a reshape keeps the row-major
  position, so position `(h, w)` is `32 h + w` and the two leading coordinates are untouched; and the two gates agree by
  `Gate.gateFused_eq_gateSep`, the doubled bias row being the bias row times 2.
-/
import Idealize.ShloMosaic.Lib.ValueLayout
import Idealize.ShloMosaic.Lib.Pipeline.Value
import proofs.«130691_g2000301520905045_pallasbulk_16_24_alg».proof.Proof.Gate

noncomputable section

namespace Cert.Whole

open Idealize.ShloMosaic Idealize.ShloMosaic.ValueIdx

abbrev S4 : Shape := ⟨4, ![64, 256, 32, 32]⟩
abbrev S3 : Shape := ⟨3, ![64, 256, 1024]⟩
abbrev S2 : Shape := ⟨2, ![64, 256]⟩
abbrev S411 : Shape := ⟨4, ![64, 256, 1, 1]⟩
abbrev S0 : Shape := ⟨0, ![]⟩

theorem c43 : S4.ShapeCasts S3 := by decide
theorem c34 : S3.ShapeCasts S4 := by decide
theorem c16 : (⟨1, ![16]⟩ : Shape).ShapeCasts ⟨2, ![1, 16]⟩ := by decide
theorem c256 : (⟨1, ![256]⟩ : Shape).ShapeCasts ⟨2, ![1, 256]⟩ := by decide
theorem b0 : S0.BroadcastsInDim ⟨1, ![256]⟩ (![] : Fin 0 → Fin 1) := by decide
theorem b1 : S2.BroadcastsInDim S411 (![0, 1] : Fin 2 → Fin 4) := by decide
theorem b2 : S411.BroadcastsInDim S4 (![0, 1, 2, 3] : Fin 4 → Fin 4) := by decide

/-! ## The arrays the regions compute, from the arrays they find -/

variable (X : S3.Idx → EReal) (W1 : (⟨2, ![256, 16]⟩ : Shape).Idx → EReal) (B1 : (⟨2, ![1, 16]⟩ : Shape).Idx → EReal)
  (W2 : (⟨2, ![16, 256]⟩ : Shape).Idx → EReal) (B : (⟨2, ![1, 256]⟩ : Shape).Idx → EReal)

/-- The `[64, 256]` array of fused gates: at `(b, c')` the fused gate of image `b`. -/
def scaleArr : S2.Idx → EReal := fun i => Gate.gateFused W1 B1 W2 B (fun ch l => X (ix3 (i 0) ch l)) (i 1)

/-- The `[64, 256, 1024]` array of entries times separate gates. -/
def gatedArr : S3.Idx → EReal := fun i => X i * Gate.gateSep W1 B1 W2 B (fun ch l => X (ix3 (i 0) ch l)) (i 1)

/-! ## The programs' results, from the arguments -/

variable (A0 : S4.Idx → EReal) (A1 : (⟨2, ![256, 16]⟩ : Shape).Idx → EReal) (A2 : (⟨1, ![16]⟩ : Shape).Idx → EReal)
  (A3 : (⟨2, ![16, 256]⟩ : Shape).Idx → EReal) (A4 : (⟨1, ![256]⟩ : Shape).Idx → EReal)

/-- The input with its positions flattened. -/
def flat : S3.Idx → EReal := shapeCast S3 A0 c43

/-- The second bias doubled, as a row. -/
def biasRow2 : (⟨2, ![1, 256]⟩ : Shape).Idx → EReal :=
  shapeCast ⟨2, ![1, 256]⟩ (mulf (F := Ideal) (φ := .f32) A4 (broadcastInDim ⟨1, ![256]⟩ ![] b0 (constant (F := Ideal) S0 .f32 0x40000000#32))) c256

/-- What the gate-only program returns. -/
def outFused : S4.Idx → EReal :=
  mulf (F := Ideal) (φ := .f32) A0 (broadcastInDim S4 ![0, 1, 2, 3] b2 (broadcastInDim S411 ![0, 1] b1
    (scaleArr (flat A0) A1 (shapeCast ⟨2, ![1, 16]⟩ A2 c16) A3 (biasRow2 A4))))

/-- What the all-in-one program returns. -/
def outSep : S4.Idx → EReal :=
  shapeCast S4 (gatedArr (flat A0) A1 (shapeCast ⟨2, ![1, 16]⟩ A2 c16) A3 (shapeCast ⟨2, ![1, 256]⟩ A4 c256)) c34

/-- The doubled bias row is the bias row times 2. -/
theorem biasRow2_apply (c' : Fin 256) :
    biasRow2 A4 (ix2 (0 : Fin 1) c') = shapeCast ⟨2, ![1, 256]⟩ A4 c256 (ix2 (0 : Fin 1) c') * Gate.twoW := by
  unfold biasRow2
  rw [shapeCast_a_1a_apply, shapeCast_a_1a_apply]
  rfl

/-- THE EQUATION: the two programs return the same array. -/
theorem outFused_eq_outSep : outFused A0 A1 A2 A3 A4 = outSep A0 A1 A2 A3 A4 := by
  funext j
  obtain ⟨b, ch, h, w, rfl⟩ : ∃ (b : Fin 64) (ch : Fin 256) (h : Fin 32) (w : Fin 32), j = ix4 b ch h w :=
    ⟨j 0, j 1, j 2, j 3, eq_ix4 j⟩
  have hh := h.isLt
  have hw := w.isLt
  have hb := b.isLt
  have hc := ch.isLt
  let k : S3.Idx := ix3 b ch (⟨h.val * 32 + w.val, by omega⟩ : Fin 1024)
  have hk : (S3.rowMajor k).val = (S4.rowMajor (ix4 b ch h w)).val := by
    rw [Shape.rowMajor_val_three, Shape.rowMajor_val_four]
    show (b.val * 256 + ch.val) * 1024 + (h.val * 32 + w.val) = ((b.val * 256 + ch.val) * 32 + h.val) * 32 + w.val
    omega
  -- the all-in-one side at (b, ch, h, w): the flattened array's entry at (b, ch, 32 h + w)
  have hR : outSep A0 A1 A2 A3 A4 (ix4 b ch h w)
      = A0 (ix4 b ch h w) * Gate.gateSep A1 (shapeCast ⟨2, ![1, 16]⟩ A2 c16) A3 (shapeCast ⟨2, ![1, 256]⟩ A4 c256)
          (fun ch' l => flat A0 (ix3 b ch' l)) ch := by
    unfold outSep
    rw [shapeCast_apply _ c34 (ix4 b ch h w) k hk]
    unfold gatedArr
    refine congrArg₂ (· * ·) ?_ rfl
    unfold flat
    exact shapeCast_apply A0 c43 k (ix4 b ch h w) hk.symm
  -- the gate-only side: the gate of (b, ch), whatever the position
  have hL : outFused A0 A1 A2 A3 A4 (ix4 b ch h w)
      = A0 (ix4 b ch h w) * Gate.gateFused A1 (shapeCast ⟨2, ![1, 16]⟩ A2 c16) A3 (biasRow2 A4)
          (fun ch' l => flat A0 (ix3 b ch' l)) ch := by
    unfold outFused
    show A0 (ix4 b ch h w) * broadcastInDim S4 ![0, 1, 2, 3] b2 (broadcastInDim S411 ![0, 1] b1
      (scaleArr (flat A0) A1 (shapeCast ⟨2, ![1, 16]⟩ A2 c16) A3 (biasRow2 A4))) (ix4 b ch h w) = _
    refine congrArg (A0 (ix4 b ch h w) * ·) ?_
    rw [broadcastInDim_apply _ b2 _ (ix4 b ch h w) (ix4 b ch (0 : Fin 1) (0 : Fin 1)) (fun a => by
        match a with
        | ⟨0, _⟩ => rfl
        | ⟨1, _⟩ => rfl
        | ⟨2, _⟩ => rfl
        | ⟨3, _⟩ => rfl),
      broadcastInDim_apply _ b1 _ (ix4 b ch (0 : Fin 1) (0 : Fin 1)) (ix2 b ch) (fun a => by
        match a with
        | ⟨0, _⟩ => rfl
        | ⟨1, _⟩ => rfl)]
    rfl
  rw [hL, hR, Gate.gateFused_eq_gateSep A1 _ A3 (biasRow2 A4) (shapeCast ⟨2, ![1, 256]⟩ A4 c256) (biasRow2_apply A4)]

end Cert.Whole

end
-- ==== Proof.KernelRun.lean ====
/-
  The gate-only program's run, read: what it returns as a function of its arguments.

  Before the region the host reshapes the first bias to a row, doubles the second bias and reshapes it to a row, and
  flattens the input's positions; so the arrays the region finds are those functions of the arguments, and the gate
  array it leaves (`scale`, by `final`) is `Whole.scaleArr` of them. After the region the host broadcasts the gate over
  the positions and multiplies the input by it: the result is `Whole.outFused` of the arguments.
-/
import proofs.«130691_g2000301520905045_pallasbulk_16_24_alg».proof.Proof.KernelValue
import proofs.«130691_g2000301520905045_pallasbulk_16_24_alg».proof.Proof.Whole

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The five argument arrays on core `c`. -/
abbrev a0 (c : Dev nD) : S64x256x32x32.Idx → Elt Ideal .f32 := m ((c.tc : Thread nD τ).loc main_arg0)
abbrev a1 (c : Dev nD) : S256x16.Idx → Elt Ideal .f32 := m ((c.tc : Thread nD τ).loc main_arg1)
abbrev a2 (c : Dev nD) : S16.Idx → Elt Ideal .f32 := m ((c.tc : Thread nD τ).loc main_arg2)
abbrev a3 (c : Dev nD) : S16x256.Idx → Elt Ideal .f32 := m ((c.tc : Thread nD τ).loc main_arg3)
abbrev a4 (c : Dev nD) : S256.Idx → Elt Ideal .f32 := m ((c.tc : Thread nD τ).loc main_arg4)

/-- The region finds the input with its positions flattened, -/
theorem V_v4 (c : Dev nD) : (V m c main_v4 : S64x256x1024.Idx → Elt Ideal .f32) = Whole.flat (a0 m c) := by
  show StableHlo.after hostOps0 (fun b => m (c, b)) (Proc.devRef .tc main_v4) = _
  after_results
  rfl

/-- the first bias as a row, -/
theorem V_v0 (c : Dev nD) : (V m c main_v0 : S1x16.Idx → Elt Ideal .f32) = shapeCast ⟨2, ![1, 16]⟩ (a2 m c) Whole.c16 := by
  show StableHlo.after hostOps0 (fun b => m (c, b)) (Proc.devRef .tc main_v0) = _
  after_results
  rfl

/-- and the second bias doubled, as a row. -/
theorem V_v3 (c : Dev nD) : (V m c main_v3 : S1x256.Idx → Elt Ideal .f32) = Whole.biasRow2 (a4 m c) := by
  show StableHlo.after hostOps0 (fun b => m (c, b)) (Proc.devRef .tc main_v3) = _
  after_results
  rfl

/-- The gate array the region leaves, from the arguments. -/
theorem scale_eq (c : Dev nD) :
    scale m c = Whole.scaleArr (Whole.flat (a0 m c)) (a1 m c) (shapeCast ⟨2, ![1, 16]⟩ (a2 m c) Whole.c16) (a3 m c) (Whole.biasRow2 (a4 m c)) := by
  show Whole.scaleArr (V m c main_v4 : S64x256x1024.Idx → Elt Ideal .f32) (V m c main_arg1 : S256x16.Idx → Elt Ideal .f32)
    (V m c main_v0 : S1x16.Idx → Elt Ideal .f32) (V m c main_arg3 : S16x256.Idx → Elt Ideal .f32) (V m c main_v3 : S1x256.Idx → Elt Ideal .f32) = _
  rw [V_v4, V_v0, V_v3, V_main_arg1, V_main_arg3]

/-- What the program returns. -/
def result (c : Dev nD) : S64x256x32x32.Idx → Elt Ideal .f32 := Whole.outFused (a0 m c) (a1 m c) (a2 m c) (a3 m c) (a4 m c)

/-- The host lines after the region leave the input times the broadcast gate in the result buffer. -/
theorem tail_eq (c : Dev nD) : Pipeline.afterTail₀ cfgs (dats m) 0 (V0 m) [hostOps1] c main_v8 = result m c := by
  unfold Pipeline.afterTail₀
  show StableHlo.after hostOps1 _ (Proc.devRef .tc main_v8) = _
  after_results
  rw [Pipeline.withArrays_of_ne _ c (V0 m c) _ main_arg0 (by exact (by decide : ∀ w, Pipeline.arrRef spec0 w ≠ main_arg0)),
    show Pipeline.withArrays (cfgs 0).spec c (V0 m c) (fun w => (dats m 0 c).arrAt w (cfgs 0).N) (Proc.devRef .tc main_v5)
      = (dats m 0 c).arrAt 5 cfg0.N from Pipeline.withArrays_arr spec0 launch0.win.arr_inj c _ _ 5,
    final, scale_eq]
  rw [show V0 m c (Proc.devRef .tc main_arg0) = m ((c : Thread nD τ).loc main_arg0) from V_main_arg0 m c]
  rfl

/-- THE RUN, READ: the result buffer ends at `result`, the arguments unchanged. -/
theorem run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Hand

end
-- ==== Proof.RefPay.lean ====
/-
  What the all-in-one program's body stores, read at an index.

  The body works on a block of 2 images: the stacked hidden layer of that block (2 rows of means over 2 rows of
  maxima), the second layer and the bias row on the whole stack, the two halves added, the logistic function —
  `Body.sepVec` at block size 2 — and then the block itself multiplied by that gate along the positions
  (`Body.scaledVec`). So the stored value at image `r` of the block, channel `c` and position `l` is the entry there
  times the separate gate of that image's entries at channel `c`.
-/
import proofs.«130691_g2000301520905045_pallasbulk_16_24_alg».proof.Proof.Gen.ReferenceIdeal.Skeleton
import proofs.«130691_g2000301520905045_pallasbulk_16_24_alg».proof.Proof.Body

noncomputable section

namespace Cert.ReferenceIdeal.Hand

open Idealize.ShloMosaic Idealize.ShloMosaic.ValueIdx Cert.ReferenceIdeal Cert.ReferenceIdeal.Gen

/-- The stored value is the block scaled by the separate spelling on a block of 2. -/
theorem pay_eq (x0 : Vec Ideal S2x256x1024 .f32) (x1 : Vec Ideal S256x16 .f32) (x2 : Vec Ideal S1x16 .f32)
    (x3 : Vec Ideal S16x256 .f32) (x4 : Vec Ideal S1x256 .f32) :
    k0_pay1 x0 x1 x2 x3 x4
      = Body.scaledVec (n := 2) x0 Gen.shapeCasts_S2x256x1024_S2x256x1024 Gen.shapeCasts_S2x256_S2x256x1 Gen.broadcasts_S2x256x1_S2x256x1024
          (Body.sepVec (n := 2) (n2 := 4) x0 x1 x2 x3 x4 dot_S4x256_S256x16_S4x16_1_0_0_1_n_n
            Gen.shapeCasts_S2x256x1024_S2x256x1024 Gen.reduces_S2x256x1024_S2x256 Gen.concatenates_S2x256_S2x256_S4x256_d0
            Gen.shapeCasts_S1x16_S1x16 Gen.broadcasts_S1x16_S4x16 Gen.shapeCasts_S1x256_S1x256 dot_S4x16_S16x256_S4x256_1_0_0_1_n_n
            Gen.broadcasts_S1x256_S4x256 Gen.slices_S4x256_o0_0_S2x256 Gen.slices_S4x256_o2_0_S2x256) := rfl

/-- At image `r` of the block, channel `c`, position `l`: the entry times the separate gate of that image at `c`. -/
theorem pay_apply (x0 : Vec Ideal S2x256x1024 .f32) (x1 : Vec Ideal S256x16 .f32) (x2 : Vec Ideal S1x16 .f32)
    (x3 : Vec Ideal S16x256 .f32) (x4 : Vec Ideal S1x256 .f32) (r : Fin 2) (c : Fin 256) (l : Fin 1024) :
    k0_pay1 x0 x1 x2 x3 x4 (ix3 r c l)
      = x0 (ix3 r c l) * Gate.gateSep x1 x2 x3 x4 (fun c l => x0 (ix3 r c l)) c := by
  rw [pay_eq, Body.scaledVec_apply]
  exact congrArg (x0 (ix3 r c l) * ·)
    (Body.sepVec_apply (n := 2) (n2 := 4) x0 x1 x2 x3 x4 _ _ _ _ _ _ _ _ _ _ _ rfl rfl rfl r c)

end Cert.ReferenceIdeal.Hand

end
-- ==== Proof.RefValue.lean ====
/-
  What the all-in-one program's region leaves in its result array.

  The region's grid has 32 points; point `t` stages images `2 t, 2 t + 1` of the flattened input (all 256 channels, all
  1024 positions), the two weight matrices and the two bias rows whole, and writes back the same two images of the
  `[64, 256, 1024]` result. By the body's reading (`pay_apply`) entry `(r, c, l)` of what point `t` writes back is the
  input's entry `(2 t + r, c, l)` times the separate gate of image `2 t + r` at channel `c` — the block at `t` of ONE
  function `gated` of the arrays as the region finds them. The 32 blocks tile the 64 images, so after the region the
  result array is `gated`.
-/
import proofs.«130691_g2000301520905045_pallasbulk_16_24_alg».proof.Proof.Gen.ReferenceIdeal.Frame
import proofs.«130691_g2000301520905045_pallasbulk_16_24_alg».proof.Proof.RefPay
import proofs.«130691_g2000301520905045_pallasbulk_16_24_alg».proof.Proof.Whole
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The result array as a function of the arrays the region finds: at `(b, c, l)` the entry times the separate gate of
    image `b` at channel `c`. -/
def gated (c : Dev nD) : S64x256x1024.Idx → Elt Ideal .f32 :=
  Whole.gatedArr (V m c main_v2 : S64x256x1024.Idx → Elt Ideal .f32) (V m c main_arg1 : S256x16.Idx → Elt Ideal .f32)
    (V m c main_v0 : S1x16.Idx → Elt Ideal .f32) (V m c main_arg3 : S16x256.Idx → Elt Ideal .f32)
    (V m c main_v1 : S1x256.Idx → Elt Ideal .f32)

/-- The printed index maps over the grid: the input and the result move one block of 2 images per point, the weights
    and bias rows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The input block at point `t` is images `2 t, 2 t + 1`. -/
theorem iblk0_apply (c : Dev nD) (t : Fin cfg0.N) (r : Fin 2) (ch : Fin 256) (l : Fin 1024) (b : Fin 64)
    (hb : b.val = t.val * 2 + r.val) :
    (iblk m c 0 t : Vec Ideal S2x256x1024 .f32) (ix3 r ch l)
      = (V m c main_v2 : S64x256x1024.Idx → Elt Ideal .f32) (ix3 b ch l) := by
  obtain ⟨e0, e1, e2, -⟩ := idx_facts t
  unfold iblk
  rw [View.read_apply]
  show V m c main_v2 _ = V m c main_v2 _
  congr 1
  funext a
  apply Fin.ext
  match a with
  | ⟨0, _⟩ => show win0_0.index t (0 : Fin 3) * 2 + 1 * r.val = b.val; omega
  | ⟨1, _⟩ => show win0_0.index t (1 : Fin 3) * 256 + 1 * ch.val = ch.val; omega
  | ⟨2, _⟩ => show win0_0.index t (2 : Fin 3) * 1024 + 1 * l.val = l.val; omega

/-- The first layer's block is the whole matrix, at every point. -/
theorem iblk1_eq (c : Dev nD) (t : Fin cfg0.N) :
    (iblk m c 1 t : Vec Ideal S256x16 .f32) = (V m c main_arg1 : S256x16.Idx → Elt Ideal .f32) := by
  obtain ⟨-, -, -, e0, e1, -⟩ := idx_facts t
  funext x
  unfold iblk
  rw [View.read_apply]
  show V m c main_arg1 _ = V m c main_arg1 _
  congr 1
  funext a
  apply Fin.ext
  match a with
  | ⟨0, _⟩ => show win0_1.index t (0 : Fin 2) * 256 + 1 * (x 0).val = (x 0).val; omega
  | ⟨1, _⟩ => show win0_1.index t (1 : Fin 2) * 16 + 1 * (x 1).val = (x 1).val; omega

/-- The first bias row's block is the whole row. -/
theorem iblk2_eq (c : Dev nD) (t : Fin cfg0.N) :
    (iblk m c 2 t : Vec Ideal S1x16 .f32) = (V m c main_v0 : S1x16.Idx → Elt Ideal .f32) := by
  obtain ⟨-, -, -, -, -, e0, e1, -⟩ := idx_facts t
  funext x
  unfold iblk
  rw [View.read_apply]
  show V m c main_v0 _ = V m c main_v0 _
  congr 1
  funext a
  apply Fin.ext
  match a with
  | ⟨0, _⟩ => show win0_2.index t (0 : Fin 2) * 1 + 1 * (x 0).val = (x 0).val; omega
  | ⟨1, _⟩ => show win0_2.index t (1 : Fin 2) * 16 + 1 * (x 1).val = (x 1).val; omega

/-- The second layer's block is the whole matrix. -/
theorem iblk3_eq (c : Dev nD) (t : Fin cfg0.N) :
    (iblk m c 3 t : Vec Ideal S16x256 .f32) = (V m c main_arg3 : S16x256.Idx → Elt Ideal .f32) := by
  obtain ⟨-, -, -, -, -, -, -, e0, e1, -⟩ := idx_facts t
  funext x
  unfold iblk
  rw [View.read_apply]
  show V m c main_arg3 _ = V m c main_arg3 _
  congr 1
  funext a
  apply Fin.ext
  match a with
  | ⟨0, _⟩ => show win0_3.index t (0 : Fin 2) * 16 + 1 * (x 0).val = (x 0).val; omega
  | ⟨1, _⟩ => show win0_3.index t (1 : Fin 2) * 256 + 1 * (x 1).val = (x 1).val; omega

/-- The second bias row's block is the whole row. -/
theorem iblk4_eq (c : Dev nD) (t : Fin cfg0.N) :
    (iblk m c 4 t : Vec Ideal S1x256 .f32) = (V m c main_v1 : S1x256.Idx → Elt Ideal .f32) := by
  obtain ⟨-, -, -, -, -, -, -, -, -, e0, e1, -⟩ := idx_facts t
  funext x
  unfold iblk
  rw [View.read_apply]
  show V m c main_v1 _ = V m c main_v1 _
  congr 1
  funext a
  apply Fin.ext
  match a with
  | ⟨0, _⟩ => show win0_4.index t (0 : Fin 2) * 1 + 1 * (x 0).val = (x 0).val; omega
  | ⟨1, _⟩ => show win0_4.index t (1 : Fin 2) * 256 + 1 * (x 1).val = (x 1).val; omega

/-- What the body stores at point `t`, at image `r` of the block, channel `ch`, position `l`: `gated` at image `2 t + r`. -/
theorem point_eq (c : Dev nD) (t : Fin cfg0.N) (r : Fin 2) (ch : Fin 256) (l : Fin 1024) (i : S64x256x1024.Idx)
    (hi0 : (i 0).val = t.val * 2 + r.val) (hi1 : (i 1).val = ch.val) (hi2 : (i 2).val = l.val) :
    k0_pay1 (iblk m c 0 t) (iblk m c 1 t) (iblk m c 2 t) (iblk m c 3 t) (iblk m c 4 t) (ix3 r ch l) = gated m c i := by
  refine (pay_apply (iblk m c 0 t) (iblk m c 1 t) (iblk m c 2 t) (iblk m c 3 t) (iblk m c 4 t) r ch l).trans ?_
  rw [iblk1_eq, iblk2_eq, iblk3_eq, iblk4_eq]
  unfold gated Whole.gatedArr
  have h1 : ch = i 1 := Fin.ext hi1.symm
  have h2 : l = i 2 := Fin.ext hi2.symm
  subst h1 h2
  have e : ix3 (n0 := 64) (n1 := 256) (n2 := 1024) (i 0) (i 1) (i 2) = i := (eq_ix3 (n0 := 64) (n1 := 256) (n2 := 1024) i).symm
  refine congrArg₂ (· * ·) ?_ (congrArg (fun x => Gate.gateSep _ _ _ _ x (i 1)) ?_)
  · exact (iblk0_apply m c t r (i 1) (i 2) (i 0) hi0).trans (congrArg _ e)
  · funext ch l
    exact iblk0_apply m c t r ch l (i 0) hi0

/-- WHAT POINT `t` WRITES BACK is block `t` of `gated`. -/
theorem flushed_eq (c : Dev nD) (t : Fin cfg0.N) :
    (dats m 0 c).flushed 5 t = ((cfg0.win 5).blk t).view.read (Elt Ideal) (gated m c) := by
  show (cfg0.win 5).cut (grid0.coords t) ((dats m 0 c).after 5 t) = _
  rw [after0_5]
  unfold out0_5
  rw [View.canon_unit_zero hz3]
  simp only [View.ld_unit_zero (S := S2x256x1024) hz3, View.ld_unit_zero (S := S256x16) hz2, View.ld_unit_zero (S := S1x16) hz2,
    View.ld_unit_zero (S := S16x256) hz2, View.ld_unit_zero (S := S1x256) hz2]
  obtain ⟨-, -, -, -, -, -, -, -, -, -, -, e0, e1, e2⟩ := idx_facts t
  funext j
  have hj : j = ix3 (n0 := 2) (n1 := 256) (n2 := 1024) (j 0) (j 1) (j 2) := eq_ix3 (n0 := 2) (n1 := 256) (n2 := 1024) j
  show k0_pay1 (iblk m c 0 t) (iblk m c 1 t) (iblk m c 2 t) (iblk m c 3 t) (iblk m c 4 t) j
    = gated m c (((cfg0.win 5).blk t).view.emb j)
  rw [hj]
  refine point_eq m c t (j 0) (j 1) (j 2) _ ?_ ?_ ?_
  · show win0_5.index t (0 : Fin 3) * 2 + 1 * (j 0).val = t.val * 2 + (j 0).val; omega
  · show win0_5.index t (1 : Fin 3) * 256 + 1 * (j 1).val = (j 1).val; omega
  · show win0_5.index t (2 : Fin 3) * 1024 + 1 * (j 2).val = (j 2).val; omega

/-- An index of the result array is in point `t`'s block iff each coordinate is in the block's range on its axis. -/
theorem mem_blk (t : Fin cfg0.N) (i : S64x256x1024.Idx) :
    i ∈ ((cfg0.win 5).blk t).view.set ↔ ∀ a : Fin 3, win0_5.index t a * S2x256x1024.size a ≤ (i a).val ∧ (i a).val < win0_5.index t a * S2x256x1024.size a + S2x256x1024.size a := by
  show i ∈ ((View.whole main_v3).slice (win0_5.rect t)).set ↔ _
  rw [View.set_slice_whole, Rect.mem_set_unit]
  exact Iff.rfl

/-- Every image of the result array is in the block of the point `image / 2`. -/
theorem cover (i : S64x256x1024.Idx) : ∃ t : Fin cfg0.N, (cfg0.win 5).flush t = true ∧ i ∈ ((cfg0.win 5).blk t).view.set := by
  have hi0 : (i 0).val < 64 := (i 0).isLt
  have hi1 : (i 1).val < 256 := (i 1).isLt
  have hi2 : (i 2).val < 1024 := (i 2).isLt
  have hN : cfg0.N = 32 := N_0
  let t : Fin cfg0.N := ⟨(i 0).val / 2, by rw [hN]; omega⟩
  obtain ⟨-, -, -, -, -, -, -, -, -, -, -, e0, e1, e2⟩ := idx_facts t
  have ht : t.val = (i 0).val / 2 := rfl
  refine ⟨t, flush0_5 t, ?_⟩
  rw [mem_blk]
  intro a
  match a with
  | ⟨0, _⟩ => show win0_5.index t (0 : Fin 3) * 2 ≤ (i 0).val ∧ (i 0).val < win0_5.index t (0 : Fin 3) * 2 + 2; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- THE RESULT ARRAY after the region is `gated`. -/
theorem final (c : Dev nD) : (dats m 0 c).arrAt 5 cfg0.N = gated m c :=
  (dats m 0 c).arrAt_eq_of_cover 5 (gated m c) (fun t _ => flushed_eq m c t) cover

end Cert.ReferenceIdeal.Hand

end
-- ==== Proof.RefRun.lean ====
/-
  The all-in-one program's run, read: what it returns as a function of its arguments.

  Before the region the host reshapes the two biases to rows and flattens the input's positions; so the arrays the region
  finds are those functions of the arguments, and the array it leaves (`gated`, by `final`) is `Whole.gatedArr` of
  them. After the region the host reshapes it back to 32 × 32 positions: the result is `Whole.outSep` of the arguments.
-/
import proofs.«130691_g2000301520905045_pallasbulk_16_24_alg».proof.Proof.RefValue
import proofs.«130691_g2000301520905045_pallasbulk_16_24_alg».proof.Proof.Whole

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen

variable (m : (ℓ : Loc nD τ sig) → Buf (Elt Ideal) ℓ) (ρ : Dev nD → PrngReg)

/-- The five argument arrays on core `c`. -/
abbrev a0 (c : Dev nD) : S64x256x32x32.Idx → Elt Ideal .f32 := m ((c.tc : Thread nD τ).loc main_arg0)
abbrev a1 (c : Dev nD) : S256x16.Idx → Elt Ideal .f32 := m ((c.tc : Thread nD τ).loc main_arg1)
abbrev a2 (c : Dev nD) : S16.Idx → Elt Ideal .f32 := m ((c.tc : Thread nD τ).loc main_arg2)
abbrev a3 (c : Dev nD) : S16x256.Idx → Elt Ideal .f32 := m ((c.tc : Thread nD τ).loc main_arg3)
abbrev a4 (c : Dev nD) : S256.Idx → Elt Ideal .f32 := m ((c.tc : Thread nD τ).loc main_arg4)

/-- The region finds the input with its positions flattened, -/
theorem V_v2 (c : Dev nD) : (V m c main_v2 : S64x256x1024.Idx → Elt Ideal .f32) = Whole.flat (a0 m c) := by
  show StableHlo.after hostOps0 (fun b => m (c, b)) (Proc.devRef .tc main_v2) = _
  after_results
  rfl

/-- the first bias as a row, -/
theorem V_v0 (c : Dev nD) : (V m c main_v0 : S1x16.Idx → Elt Ideal .f32) = shapeCast ⟨2, ![1, 16]⟩ (a2 m c) Whole.c16 := by
  show StableHlo.after hostOps0 (fun b => m (c, b)) (Proc.devRef .tc main_v0) = _
  after_results
  rfl

/-- and the second bias as a row. -/
theorem V_v1 (c : Dev nD) : (V m c main_v1 : S1x256.Idx → Elt Ideal .f32) = shapeCast ⟨2, ![1, 256]⟩ (a4 m c) Whole.c256 := by
  show StableHlo.after hostOps0 (fun b => m (c, b)) (Proc.devRef .tc main_v1) = _
  after_results
  rfl

/-- The array the region leaves, from the arguments. -/
theorem gated_eq (c : Dev nD) :
    gated m c = Whole.gatedArr (Whole.flat (a0 m c)) (a1 m c) (shapeCast ⟨2, ![1, 16]⟩ (a2 m c) Whole.c16) (a3 m c)
      (shapeCast ⟨2, ![1, 256]⟩ (a4 m c) Whole.c256) := by
  unfold gated
  rw [V_v2, V_v0, V_v1, V_main_arg1, V_main_arg3]

/-- What the program returns. -/
def result (c : Dev nD) : S64x256x32x32.Idx → Elt Ideal .f32 := Whole.outSep (a0 m c) (a1 m c) (a2 m c) (a3 m c) (a4 m c)

/-- The host line after the region leaves the region's array, reshaped, in the result buffer. -/
theorem tail_eq (c : Dev nD) : Pipeline.afterTail₀ cfgs (dats m) 0 (V0 m) [hostOps1] c main_v4 = result m c := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v3)
      = (dats m 0 c).arrAt 5 cfg0.N from Pipeline.withArrays_arr spec0 launch0.win.arr_inj c _ _ 5,
    final, gated_eq]
  rfl

/-- THE RUN, READ: the result buffer ends at `result`, the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.ReferenceIdeal.Hand

end
-- ==== Proof.lean ====
/- The proof of `Cert.Claim`: a channel gate (per-channel mean and maximum over the 1024 positions of each of 64 images,
   a two-layer perceptron shared by the two pooled vectors, the logistic function, and the input multiplied by the
   resulting gate) computed in two ways, equal on the extended reals.

   One program computes only the `[64, 256]` gate in its region, 16 images per grid point, adding the two hidden
   vectors BEFORE the second layer and adding the doubled second bias once; the host then multiplies the input by the
   gate. The other computes everything in its region, 2 images per grid point, applying the second layer and its bias
   to each hidden vector and adding AFTER. The hidden vectors are nonnegative (a maximum with zero), and on the extended
   reals multiplication distributes over a sum of nonnegatives, so `Σ_j (a_j + b_j) · w_j = Σ_j a_j · w_j + Σ_j b_j · w_j`
   with no finiteness assumed; and `b · 2 = b + b`. The tilings differ but every block is a restriction of one
   whole-array function (Proof/KernelValue.lean, Proof/RefValue.lean), the flattening of the positions and its inverse
   keep the row-major position (Proof/Whole.lean), and the bodies' arithmetic is read index by index once, for any block
   size (Proof/Body.lean, over Proof/Gate.lean's one-image functions). The three frames are the generated ones;
   nothing was rewritten by the idealization, so `preserves` has no conjunct. -/
import proofs.«130691_g2000301520905045_pallasbulk_16_24_alg».proof.Defs
import proofs.«130691_g2000301520905045_pallasbulk_16_24_alg».proof.Proof.Gen.Kernel
import proofs.«130691_g2000301520905045_pallasbulk_16_24_alg».proof.Proof.Gen.Kernel.Skeleton
import proofs.«130691_g2000301520905045_pallasbulk_16_24_alg».proof.Proof.Gen.Kernel.Launch
import proofs.«130691_g2000301520905045_pallasbulk_16_24_alg».proof.Proof.Gen.Kernel.Points
import proofs.«130691_g2000301520905045_pallasbulk_16_24_alg».proof.Proof.Gen.Kernel.Frame
import proofs.«130691_g2000301520905045_pallasbulk_16_24_alg».proof.Proof.Gen.KernelIdeal
import proofs.«130691_g2000301520905045_pallasbulk_16_24_alg».proof.Proof.Gen.KernelIdeal.Skeleton
import proofs.«130691_g2000301520905045_pallasbulk_16_24_alg».proof.Proof.Gen.KernelIdeal.Launch
import proofs.«130691_g2000301520905045_pallasbulk_16_24_alg».proof.Proof.Gen.KernelIdeal.Points
import proofs.«130691_g2000301520905045_pallasbulk_16_24_alg».proof.Proof.Gen.KernelIdeal.Frame
import proofs.«130691_g2000301520905045_pallasbulk_16_24_alg».proof.Proof.Gen.ReferenceIdeal
import proofs.«130691_g2000301520905045_pallasbulk_16_24_alg».proof.Proof.Gen.ReferenceIdeal.Skeleton
import proofs.«130691_g2000301520905045_pallasbulk_16_24_alg».proof.Proof.Gen.ReferenceIdeal.Launch
import proofs.«130691_g2000301520905045_pallasbulk_16_24_alg».proof.Proof.Gen.ReferenceIdeal.Points
import proofs.«130691_g2000301520905045_pallasbulk_16_24_alg».proof.Proof.Gen.ReferenceIdeal.Frame
import proofs.«130691_g2000301520905045_pallasbulk_16_24_alg».proof.Proof.Gen.Pre_finite_inputs
import proofs.«130691_g2000301520905045_pallasbulk_16_24_alg».proof.Proof.KernelRun
import proofs.«130691_g2000301520905045_pallasbulk_16_24_alg».proof.Proof.RefRun
import Idealize.ShloMosaic.Adequacy
import Idealize.ShloMosaic.Init

noncomputable section

namespace Cert.Proof

open Idealize.ShloMosaic Idealize.SL.Sem

/-- The three programs run and keep their arguments: the generated frames. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- From arguments that agree, the gate-only program ends at `Whole.outFused` of them and the all-in-one program at
    `Whole.outSep` of them: one array (`Whole.outFused_eq_outSep`). -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4⟩ := hagree c
  unfold Cert.ReferenceIdeal.Hand.result Cert.KernelIdeal.Hand.result
  unfold Cert.ReferenceIdeal.Hand.a0 Cert.ReferenceIdeal.Hand.a1 Cert.ReferenceIdeal.Hand.a2 Cert.ReferenceIdeal.Hand.a3
    Cert.ReferenceIdeal.Hand.a4 Cert.KernelIdeal.Hand.a0 Cert.KernelIdeal.Hand.a1 Cert.KernelIdeal.Hand.a2
    Cert.KernelIdeal.Hand.a3 Cert.KernelIdeal.Hand.a4
  rw [h0, h1, h2, h3, h4]
  exact (Cert.Whole.outFused_eq_outSep _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
